-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 66
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S64x64, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result array named.

  The program is two pipelined regions among four stretches of host operations. Its frame argument already walks the
  buffer contents through every segment boundary: after the last region every unscoped buffer of a core holds the last
  boundary's contents. Reading that final state at the result buffer as well as at the five arguments gives the run
  below: the result ends at the last boundary's contents of its buffer, which is what region 1's write-backs leave in
  output window 2's array, and the arguments end as launched.
-/
import proofs.«173203_j66262755443071_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents of the
    last segment boundary and the five argument arrays end as launched. -/
theorem run_boundary : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- The last boundary's contents of the result buffer are what region 1's write-backs leave in its output window's
    array: the result buffer IS that window's array. -/
theorem boundary_result (c : Dev nD) :
    W6 m ρ c (Proc.devRef .tc main_v47) = (dat1 (V5 m ρ) c).arrAt 2 cfg1.N :=
  W6_arr m ρ c 2

/-- Region 0's output array, as region 1's host stretch finds it, is what region 0's write-backs leave. -/
theorem boundary_linear (c : Dev nD) :
    W4 m ρ c (Proc.devRef .tc main_v32) = (dat0 (V3 m ρ) c).arrAt 2 cfg0.N :=
  W4_arr m ρ c 2

end Cert.KernelIdeal.Result

end
-- ==== Proof.Payloads.lean ====
/-
  The two kernel bodies' stored values, read at an index, on the extended reals.

  Region 0's body stores the matrix product of its row block with the transposed weight matrix into a zero
  accumulator; a change of float format is the identity on the extended reals, so entry (p, q) of the stored block is
  ∑ₖ x(p, k) · W(q, k). Region 1's body adds the [1, 64] bias row, broadcast down the rows, to its block and takes
  the maximum with zero: entry (p, q) is max (a(p, q) + b(0, q)) 0.
-/
import proofs.«173203_j66262755443071_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The left operand's index at output index (p, q) and contraction index κ: row p on the free axis. -/
theorem lhs_row (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The right operand's index: column q on the free axis. -/
theorem rhs_col (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Region 0's stored block at (p, q): the dot product of row p of the loaded row block with row q of the loaded
    weight matrix (the body multiplies by the transpose). -/
theorem linear_block (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 q k) := by
  unfold k0_pay1
  refine (Ideal.matmul_constant_zero_apply dot_S10000x64_S64x64_S10000x64_1_0_0_1_n_n none
    (truncf (F := Ideal) .bf16 x0 bitsLt_bf16_f32)
    (transpose S64x64 [1, 0] (truncf (F := Ideal) .bf16 x1 bitsLt_bf16_f32) transposes_S64x64_p1_0_S64x64) (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs_col _ _)
  rw [el, er]
  rw [transpose_apply [1, 0] (truncf (F := Ideal) .bf16 x1 bitsLt_bf16_f32) transposes_S64x64_p1_0_S64x64 (ix2 k q) (ix2 q k)
    (fun b => match b with
      | ⟨0, _⟩ => rfl
      | ⟨1, _⟩ => rfl)]
  rfl

/-- Region 1's stored block at (p, q): the block's entry plus the bias row's entry q, clamped below at zero. -/
theorem biasRelu_block (x0 : Vec Ideal S10000x64 .f32) (x1 : Vec Ideal S1x64 .f32) (p : Fin 10000) (q : Fin 64) :
    k1_pay1 (F := Ideal) x0 x1 (ix2 p q) = max (x0 (ix2 p q) + x1 (ix2 0 q)) (Ideal.ofBits .f32 0x00000000#32) := by
  unfold k1_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self,
    broadcastTo_apply x1 broadcasts_S1x64_S10000x64 (ix2 p q) (ix2 0 q)
      (fun a => match a with
        | ⟨0, _⟩ => rfl
        | ⟨1, _⟩ => rfl)]

end Cert.KernelIdeal.Payload

end
-- ==== Proof.Spec.lean ====
/-
  What the layer computes, as functions of whole arrays over literal shapes, index by index on the extended reals.

  With x : [100000, 64], W : [64, 64] and b : [64]:
    * the linear transform  h = x Wᵀ,  h(r, j) = ∑ₖ x(r, k) · W(j, k);
    * the closing step       out(r, j) = max (a(r, j) + b(j)) 0   of an aggregated array a : [100000, 64].
  Between them sits the gather–scale–scatter aggregation over the edge list, which both programs compute by the same
  host operations of h, the edge indices and the edge weights; it is carried as one function and never opened.
-/
import Idealize.ShloMosaic.PureOps.Ideal
import Idealize.ShloMosaic.Lib.ValueIdx

noncomputable section

namespace GcnLayer

open Idealize.ShloMosaic Idealize.ShloMosaic.ValueIdx

/-- The node features and every [100000, 64] array of the layer. -/
abbrev Nodes : Shape := ⟨2, ![100000, 64]⟩
/-- The weight matrix, [out, in]. -/
abbrev Weight : Shape := ⟨2, ![64, 64]⟩
/-- The bias vector. -/
abbrev BiasVec : Shape := ⟨1, ![64]⟩

/-- The linear transform h = x Wᵀ: entry (r, j) is the sum over k of x(r, k) · W(j, k). -/
def linear (x : Nodes.Idx → EReal) (w : Weight.Idx → EReal) : Nodes.Idx → EReal :=
  fun i => ∑ k : Fin 64, x (ix2 (i 0) k) * w (ix2 (i 1) k)

/-- Bias and rectifier: entry (r, j) is max (a(r, j) + b(j)) 0, the zero being the f32 zero word's value. -/
def biasRelu (a : Nodes.Idx → EReal) (b : BiasVec.Idx → EReal) : Nodes.Idx → EReal :=
  fun i => max (a i + b (ix1 (i 1))) (Ideal.ofBits .f32 0x00000000#32)

end GcnLayer

end
-- ==== Proof.Blocks.lean ====
/-
  From blocks to whole arrays, for both regions, at ANY contents the region may find on entry.

  Each region runs over ten grid points. At point t its row-block window and its output window sit at block (t, 0) —
  rows 10000·t … 10000·t + 9999, all 64 columns — and its small resident window at block (0, 0), the whole of its
  array. So what point t writes back is block t of ONE whole-array function of the region's input arrays (the
  specification's `linear`, resp. `biasRelu`), and the ten blocks tile the 100000 rows: the row r lies in block
  r / 10000. Hence after the region the output array IS that function of the input arrays.
-/
import proofs.«173203_j66262755443071_1_alg».proof.Proof.Gen.KernelIdeal.Frame
import proofs.«173203_j66262755443071_1_alg».proof.Proof.Payloads
import proofs.«173203_j66262755443071_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx GcnLayer
open Idealize.ShloMosaic.Pipeline (Dat)

variable (V : (c : Dev nD) → (b : Ref sig .tc) → Buf (Elt Ideal) ((c : Thread nD τ).loc b))

/-- Every access of both bodies starts at the origin of its buffer. -/
theorem origin : (![0, 0] : Fin 2 → Nat) = fun _ => 0 := funext fun a => by fin_cases a <;> rfl

/-! ## Region 0: the linear transform -/

/-- The printed index maps over the grid: the row block and the output move with the point, the weight stays. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem point_of_block0 : ∀ r : Fin 10, ∃ t : Fin cfg0.N, win0_2.index t = ![r.val, 0] :=
  (by decide +kernel : ∀ r : Fin 10, ∃ t : Fin grid0.N, win0_2.index t = ![r.val, 0])

/-- What point t writes back is block t of x Wᵀ, x and W the region's input arrays as it finds them. -/
theorem linear_flushed (c : Dev nD) (t : Fin cfg0.N) :
    (dat0 V c).flushed 2 t = ((cfg0.win 2).blk t).view.read (Elt Ideal) (linear (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := index_maps0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = linear (V c main_arg0) (V c main_arg3) (((cfg0.win 2).blk t).view.emb (ix2 p q))
  refine (Payload.linear_block (iblk0 V c 0 t) (iblk0 V c 1 t) p q).trans ?_
  unfold linear
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have hw : ((cfg0.win 1).blk t).view.emb (ix2 q k) = ix2 ((((cfg0.win 2).blk t).view.emb (ix2 p q)) 1) k := by
    funext a; apply Fin.ext
    match a with
    | ⟨0, _⟩ => show win0_1.index t (0 : Fin 2) * 64 + 1 * q.val = win0_2.index t (1 : Fin 2) * 64 + 1 * q.val; omega
    | ⟨1, _⟩ => show win0_1.index t (1 : Fin 2) * 64 + 1 * k.val = k.val; omega
  refine congrArg₂ (fun a b : EReal => a * b) ?_ ?_
  · exact congrArg (V c main_arg0) hx
  · exact congrArg (V c main_arg3) hw

/-- An index of the output array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten row blocks tile the array: row r is in block r / 10000. -/
theorem linear_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of_block0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After region 0 its output array is x Wᵀ of its input arrays. -/
theorem linear_array (c : Dev nD) :
    (dat0 V c).arrAt 2 cfg0.N = linear (V c main_arg0) (V c main_arg3) :=
  (dat0 V c).arrAt_eq_of_cover 2 (linear (V c main_arg0) (V c main_arg3)) (fun t _ => linear_flushed V c t) linear_cover

/-! ## Region 1: bias and rectifier -/

/-- The printed index maps over the grid: the aggregated block and the output move with the point, the bias row stays. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem point_of_block1 : ∀ r : Fin 10, ∃ t : Fin cfg1.N, win1_2.index t = ![r.val, 0] :=
  (by decide +kernel : ∀ r : Fin 10, ∃ t : Fin grid1.N, win1_2.index t = ![r.val, 0])

/-- The bias as region 1 finds it: row 0 of its [1, 64] array. -/
def biasRow (c : Dev nD) : BiasVec.Idx → EReal := fun j => V c main_v46 (ix2 0 (j 0))

/-- What point t writes back is block t of max (a + b) 0, a and b the region's input arrays as it finds them. -/
theorem biasRelu_flushed (c : Dev nD) (t : Fin cfg1.N) :
    (dat1 V c).flushed 2 t = ((cfg1.win 2).blk t).view.read (Elt Ideal) (biasRelu (V c main_v45) (biasRow V c)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := index_maps1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = biasRelu (V c main_v45) (biasRow V c) (((cfg1.win 2).blk t).view.emb (ix2 p q))
  refine (Payload.biasRelu_block (iblk1 V c 0 t) (iblk1 V c 1 t) p q).trans ?_
  unfold biasRelu biasRow
  have ha : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hb : ((cfg1.win 1).blk t).view.emb (ix2 0 q) = ix2 0 ((ix1 ((((cfg1.win 2).blk t).view.emb (ix2 p q)) 1)) 0) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  refine congrArg₂ (fun a b : EReal => max (a + b) (Ideal.ofBits .f32 0x00000000#32)) ?_ ?_
  · exact congrArg (V c main_v45) ha
  · exact congrArg (V c main_v46) hb

/-- An index of the output array is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten row blocks tile the array: row r is in block r / 10000. -/
theorem biasRelu_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := point_of_block1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After region 1 its output array is max (a + b) 0 of its input arrays. -/
theorem biasRelu_array (c : Dev nD) :
    (dat1 V c).arrAt 2 cfg1.N = biasRelu (V c main_v45) (biasRow V c) :=
  (dat1 V c).arrAt_eq_of_cover 2 (biasRelu (V c main_v45) (biasRow V c)) (fun t _ => biasRelu_flushed V c t) biasRelu_cover

end Cert.KernelIdeal.Blocks

end
-- ==== Proof.Aggregate.lean ====
/-
  The aggregation both programs share, as ONE function.

  After the linear transform both programs gather the source rows of h, scale each by its edge's normalisation
  coefficient and add into the destination rows of a zero array; the indices and coefficients come from the edge list
  and the edge weights by the same host operations in both programs. The function below is that composite of the
  reference's stages with h a variable. It is never opened: the two programs are compared by showing that they feed
  it equal arrays.
-/
import proofs.«173203_j66262755443071_1_alg».proof.Proof.Gen.ReferenceIdeal.Read
import Idealize.ShloMosaic.PureOps.Ideal

noncomputable section

namespace Cert.ReferenceIdeal.Shared

open Cert.ReferenceIdeal Cert.ReferenceIdeal.Gen Cert.ReferenceIdeal.Read Idealize.ShloMosaic

/-- Gather–scale–scatter: the source rows of h, each scaled by its edge's normalisation coefficient, added into the
    destination rows of a zero array. A function of h, the edge list x1 and the edge weights x2. -/
def aggregate (h : FVec Ideal S100000x64 .f32) (x1 : (⟨S2x1600000, .i32⟩ : BufTy).Contents (Elt Ideal))
    (x2 : (⟨S1600000, .f32⟩ : BufTy).Contents (Elt Ideal)) : FVec Ideal S100000x64 .f32 :=
  Host.scatterAdd (F := Ideal) scatter_S100000x64_S1700000x1_S1700000x64_1_0_0_1 (val_main_v44 (F := Ideal)) (val_main_v45 (F := Ideal) x1)
    (mulf (F := Ideal) (Host.gather gather_S100000x64_S1700000x1_S1700000x64_1_0_n_n_0_1_164 h (val_main_v39 (F := Ideal) x1)) (val_main_v42 (F := Ideal) x1 x2))

/-- The reference aggregates its own linear transform. -/
theorem reference_aggregates (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal)) :
    val_main_v46 (F := Ideal) x0 x1 x2 x3 = aggregate (val_main_v33 (F := Ideal) x0 x3) x1 x2 := rfl

end Cert.ReferenceIdeal.Shared

end
-- ==== Proof.HostChain.lean ====
/-
  The host operations around the two regions, read stretch by stretch at Ideal.

  Both programs prepare the same edge data from the edge list and the edge weights — source and destination indices
  with one self-loop per node appended, the weights with a one per self-loop, the degree of every node as the sum of
  the weights into it, its inverse square root where the degree is positive and zero elsewhere, and the
  normalisation coefficient of every edge — and both aggregate a [100000, 64] array h the same way: gather the
  source rows of h, scale each by its edge's coefficient, add into the destination rows. None of this is opened here.
  Each stretch of the kernel's host operations is read from the contents the previous segment leaves, and each value
  is identified with the reference's stage of the same name; the aggregation is one function `aggregate` of h, the
  edge list and the edge weights.
-/
import proofs.«173203_j66262755443071_1_alg».proof.Proof.Gen.KernelIdeal.Frame
import proofs.«173203_j66262755443071_1_alg».proof.Proof.Gen.ReferenceIdeal.Read
import proofs.«173203_j66262755443071_1_alg».proof.Proof.Aggregate
import Idealize.ShloMosaic.Lib.StableHlo.Run
import Idealize.ShloMosaic.PureOps.Ideal

set_option maxRecDepth 16384
set_option maxHeartbeats 4000000

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: indices, weights, degrees -/

/-- The source indices with the self-loops appended. -/
theorem src_1 (c : Dev nD) : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  generalize hB : W0 m ρ c = B
  after_results_simp
  subst hB
  rfl

/-- The destination indices with the self-loops appended. -/
theorem dst_1 (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  generalize hB : W0 m ρ c = B
  after_results_simp
  subst hB
  rfl

/-- The edge weights with a one per self-loop. -/
theorem wts_1 (c : Dev nD) : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  generalize hB : W0 m ρ c = B
  after_results_simp
  subst hB
  rfl

/-- Where the degree is positive. -/
theorem pos_1 (c : Dev nD) : W1 m ρ c (Proc.devRef .tc main_v13) = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  generalize hB : W0 m ρ c = B
  after_results_simp
  subst hB
  rfl

/-- The inverse square root of the degree. -/
theorem rsq_1 (c : Dev nD) : W1 m ρ c (Proc.devRef .tc main_v14) = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  generalize hB : W0 m ρ c = B
  after_results_simp
  subst hB
  rfl

/-- The zero that stands where the degree is not positive. -/
theorem zero_1 (c : Dev nD) : W1 m ρ c (Proc.devRef .tc main_cst_2) = Cert.ReferenceIdeal.Read.val_main_cst_2 (F := Ideal) := by
  show StableHlo.after hostOps0 (W0 m ρ c) (Proc.devRef .tc main_cst_2) = _
  generalize hB : W0 m ρ c = B
  after_results_simp
  subst hB
  rfl

/-! ## The second stretch: the selection -/

/-- The inverse square root of the degree where it is positive, zero elsewhere. -/
theorem dinv_2 (c : Dev nD) : W2 m ρ c (Proc.devRef .tc main_v15) = Cert.ReferenceIdeal.Read.val_main_v15 (F := Ideal) (m ((c : Thread nD τ).loc main_arg1)) (m ((c : Thread nD τ).loc main_arg2)) := by
  show StableHlo.after hostOps0_1 (W1 m ρ c) (Proc.devRef .tc main_v15) = _
  generalize hB : W1 m ρ c = B
  after_results_simp
  show select (B (Proc.devRef .tc main_v13)) (B (Proc.devRef .tc main_v14))
    (broadcastInDim S100000 ![] bcast_S_S100000 (id (B (Proc.devRef .tc main_cst_2)))) = _
  subst hB
  rw [pos_1 m ρ c, rsq_1 m ρ c, zero_1 m ρ c]
  rfl
/-- The source indices pass through. -/
theorem src_2 (c : Dev nD) : W2 m ρ c (Proc.devRef .tc main_v5) = Cert.ReferenceIdeal.Read.val_main_v5 (F := Ideal) (m ((c : Thread nD τ).loc main_arg1)) := by
  show StableHlo.after hostOps0_1 (W1 m ρ c) (Proc.devRef .tc main_v5) = _
  generalize hB : W1 m ρ c = B
  after_results_simp
  subst hB
  exact src_1 m ρ c

/-- The destination indices pass through. -/
theorem dst_2 (c : Dev nD) : W2 m ρ c (Proc.devRef .tc main_v6) = Cert.ReferenceIdeal.Read.val_main_v6 (F := Ideal) (m ((c : Thread nD τ).loc main_arg1)) := by
  show StableHlo.after hostOps0_1 (W1 m ρ c) (Proc.devRef .tc main_v6) = _
  generalize hB : W1 m ρ c = B
  after_results_simp
  subst hB
  exact dst_1 m ρ c

/-- The weights pass through. -/
theorem wts_2 (c : Dev nD) : W2 m ρ c (Proc.devRef .tc main_v8) = Cert.ReferenceIdeal.Read.val_main_v8 (F := Ideal) (m ((c : Thread nD τ).loc main_arg2)) := by
  show StableHlo.after hostOps0_1 (W1 m ρ c) (Proc.devRef .tc main_v8) = _
  generalize hB : W1 m ρ c = B
  after_results_simp
  subst hB
  exact wts_1 m ρ c

/-! ## The third stretch: the normalisation coefficients -/

/-- The coefficient of every edge: the inverse root degrees of its two ends times its weight. -/
theorem norm_3 (c : Dev nD) : W3 m ρ c (Proc.devRef .tc main_v31) = Cert.ReferenceIdeal.Read.val_main_v31 (F := Ideal) (m ((c : Thread nD τ).loc main_arg1)) (m ((c : Thread nD τ).loc main_arg2)) := by
  show StableHlo.after hostOps0_2 (W2 m ρ c) (Proc.devRef .tc main_v31) = _
  generalize hB : W2 m ρ c = B
  after_results_simp
  subst hB
  rw [src_2 m ρ c, dst_2 m ρ c, wts_2 m ρ c, dinv_2 m ρ c]
  rfl

/-- The source indices pass through. -/
theorem src_3 (c : Dev nD) : W3 m ρ c (Proc.devRef .tc main_v5) = Cert.ReferenceIdeal.Read.val_main_v5 (F := Ideal) (m ((c : Thread nD τ).loc main_arg1)) := by
  show StableHlo.after hostOps0_2 (W2 m ρ c) (Proc.devRef .tc main_v5) = _
  generalize hB : W2 m ρ c = B
  after_results_simp
  subst hB
  exact src_2 m ρ c

/-- The destination indices pass through. -/
theorem dst_3 (c : Dev nD) : W3 m ρ c (Proc.devRef .tc main_v6) = Cert.ReferenceIdeal.Read.val_main_v6 (F := Ideal) (m ((c : Thread nD τ).loc main_arg1)) := by
  show StableHlo.after hostOps0_2 (W2 m ρ c) (Proc.devRef .tc main_v6) = _
  generalize hB : W2 m ρ c = B
  after_results_simp
  subst hB
  exact dst_2 m ρ c

end Cert.KernelIdeal.Host

end
-- ==== Proof.KernelValue.lean ====
/-
  The idealized kernel's result as the specification's function of the argument arrays.

  Region 0 finds x and W as launched, so it leaves h = x Wᵀ in its output array. The host stretch after it aggregates
  that array over the edges, with the indices and coefficients the earlier stretches prepared, and reshapes the bias
  to a [1, 64] row. Region 1 finds the aggregate and the bias row and leaves max (aggregate + bias) 0 in the result:
  `biasRelu` of the aggregate of `linear`, the same function of the five arguments as the reference's.
-/
import proofs.«173203_j66262755443071_1_alg».proof.Proof.KernelRun
import proofs.«173203_j66262755443071_1_alg».proof.Proof.Blocks
import proofs.«173203_j66262755443071_1_alg».proof.Proof.HostChain
import proofs.«173203_j66262755443071_1_alg».proof.Proof.Aggregate
import proofs.«173203_j66262755443071_1_alg».proof.Proof.Spec
import Idealize.ShloMosaic.Lib.Pipeline.Value

set_option maxRecDepth 16384
set_option maxHeartbeats 4000000

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.ValueIdx GcnLayer Cert.ReferenceIdeal.Shared

variable (m : (ℓ : Loc nD τ sig) → Buf (Elt Ideal) ℓ) (ρ : Dev nD → PrngReg)

/-! ## The arguments as the regions and stretches find them -/

/-- The node features reach region 0 as launched: no host operation writes an argument. -/
theorem main_arg0_1 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem main_arg0_2 (c : Dev nD) : W2 m ρ c (Proc.devRef .tc main_arg0) = (m ((c : Thread nD τ).loc main_arg0)) := by
  show StableHlo.after hostOps0_1 (W1 m ρ c) (Proc.devRef .tc main_arg0) = _
  generalize hB : W1 m ρ c = B
  after_results_simp
  subst hB
  exact main_arg0_1 m ρ c
theorem main_arg0_3 (c : Dev nD) : W3 m ρ c (Proc.devRef .tc main_arg0) = (m ((c : Thread nD τ).loc main_arg0)) := by
  show StableHlo.after hostOps0_2 (W2 m ρ c) (Proc.devRef .tc main_arg0) = _
  generalize hB : W2 m ρ c = B
  after_results_simp
  subst hB
  exact main_arg0_2 m ρ c

/-- The weights reach region 0 as launched: no host operation writes an argument. -/
theorem main_arg3_1 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem main_arg3_2 (c : Dev nD) : W2 m ρ c (Proc.devRef .tc main_arg3) = (m ((c : Thread nD τ).loc main_arg3)) := by
  show StableHlo.after hostOps0_1 (W1 m ρ c) (Proc.devRef .tc main_arg3) = _
  generalize hB : W1 m ρ c = B
  after_results_simp
  subst hB
  exact main_arg3_1 m ρ c
theorem main_arg3_3 (c : Dev nD) : W3 m ρ c (Proc.devRef .tc main_arg3) = (m ((c : Thread nD τ).loc main_arg3)) := by
  show StableHlo.after hostOps0_2 (W2 m ρ c) (Proc.devRef .tc main_arg3) = _
  generalize hB : W2 m ρ c = B
  after_results_simp
  subst hB
  exact main_arg3_2 m ρ c

/-- The bias reaches the last host stretch as launched: no host operation writes an argument. -/
theorem main_arg4_1 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem main_arg4_2 (c : Dev nD) : W2 m ρ c (Proc.devRef .tc main_arg4) = (m ((c : Thread nD τ).loc main_arg4)) := by
  show StableHlo.after hostOps0_1 (W1 m ρ c) (Proc.devRef .tc main_arg4) = _
  generalize hB : W1 m ρ c = B
  after_results_simp
  subst hB
  exact main_arg4_1 m ρ c
theorem main_arg4_3 (c : Dev nD) : W3 m ρ c (Proc.devRef .tc main_arg4) = (m ((c : Thread nD τ).loc main_arg4)) := by
  show StableHlo.after hostOps0_2 (W2 m ρ c) (Proc.devRef .tc main_arg4) = _
  generalize hB : W2 m ρ c = B
  after_results_simp
  subst hB
  exact main_arg4_2 m ρ c

theorem main_arg4_4 (c : Dev nD) : W4 m ρ c (Proc.devRef .tc main_arg4) = (m ((c : Thread nD τ).loc main_arg4)) :=
  (W4_of_ne m ρ c main_arg4 (by decide)).trans (main_arg4_3 m ρ c)

/-! ## Region 0's exit -/

/-- The edge data pass region 0 untouched: it writes only its output array. -/
theorem src_4 (c : Dev nD) : W4 m ρ c (Proc.devRef .tc main_v5) = Cert.ReferenceIdeal.Read.val_main_v5 (F := Ideal) (m ((c : Thread nD τ).loc main_arg1)) :=
  (W4_of_ne m ρ c main_v5 (by decide)).trans (Host.src_3 m ρ c)
theorem dst_4 (c : Dev nD) : W4 m ρ c (Proc.devRef .tc main_v6) = Cert.ReferenceIdeal.Read.val_main_v6 (F := Ideal) (m ((c : Thread nD τ).loc main_arg1)) :=
  (W4_of_ne m ρ c main_v6 (by decide)).trans (Host.dst_3 m ρ c)
theorem norm_4 (c : Dev nD) : W4 m ρ c (Proc.devRef .tc main_v31) = Cert.ReferenceIdeal.Read.val_main_v31 (F := Ideal) (m ((c : Thread nD τ).loc main_arg1)) (m ((c : Thread nD τ).loc main_arg2)) :=
  (W4_of_ne m ρ c main_v31 (by decide)).trans (Host.norm_3 m ρ c)

/-- Region 0 leaves h = x Wᵀ of the launched x and W. -/
theorem linear_4 (c : Dev nD) :
    W4 m ρ c (Proc.devRef .tc main_v32) = linear (m ((c : Thread nD τ).loc main_arg0)) (m ((c : Thread nD τ).loc main_arg3)) := by
  rw [Result.boundary_linear, Blocks.linear_array (V3 m ρ) c,
    show V3 m ρ c main_arg0 = (m ((c : Thread nD τ).loc main_arg0)) from main_arg0_3 m ρ c,
    show V3 m ρ c main_arg3 = (m ((c : Thread nD τ).loc main_arg3)) from main_arg3_3 m ρ c]

/-! ## Region 1's entry -/

/-- Region 1 finds the aggregate of h over the edges. -/
theorem aggregate_5 (c : Dev nD) :
    V5 m ρ c main_v45 = aggregate (linear (m ((c : Thread nD τ).loc main_arg0)) (m ((c : Thread nD τ).loc main_arg3))) (m ((c : Thread nD τ).loc main_arg1)) (m ((c : Thread nD τ).loc main_arg2)) := by
  show StableHlo.after hostOps1 (W4 m ρ c) (Proc.devRef .tc main_v45) = _
  generalize hB : W4 m ρ c = B
  after_results_simp
  subst hB
  rw [src_4 m ρ c, dst_4 m ρ c, norm_4 m ρ c, linear_4 m ρ c]
  rfl

/-- Region 1 finds the bias as the one row of a [1, 64] array. -/
theorem biasArray_5 (c : Dev nD) :
    V5 m ρ c main_v46 = shapeCast S1x64 (m ((c : Thread nD τ).loc main_arg4)) shapeCasts_S64_S1x64 := by
  show StableHlo.after hostOps1 (W4 m ρ c) (Proc.devRef .tc main_v46) = _
  generalize hB : W4 m ρ c = B
  after_results_simp
  subst hB
  rw [main_arg4_4 m ρ c]
  rfl

/-- Row 0 of that array is the bias vector. -/
theorem biasRow_5 (c : Dev nD) : Blocks.biasRow (V5 m ρ) c = (m ((c : Thread nD τ).loc main_arg4)) := by
  funext j
  show V5 m ρ c main_v46 (ix2 0 (j 0)) = _
  rw [biasArray_5 m ρ c]
  refine (shapeCast_addUnit_apply ![64] (m ((c : Thread nD τ).loc main_arg4)) shapeCasts_S64_S1x64 (ix2 0 (j 0))).trans ?_
  exact congrArg (m ((c : Thread nD τ).loc main_arg4)) (funext fun a => by match a with | ⟨0, _⟩ => rfl)

/-! ## The result -/

/-- The last boundary's contents of the result buffer: the specification's function of the five arguments. -/
theorem result (c : Dev nD) :
    W6 m ρ c (Proc.devRef .tc main_v47)
      = biasRelu (aggregate (linear (m ((c : Thread nD τ).loc main_arg0)) (m ((c : Thread nD τ).loc main_arg3))) (m ((c : Thread nD τ).loc main_arg1)) (m ((c : Thread nD τ).loc main_arg2))) (m ((c : Thread nD τ).loc main_arg4)) := by
  rw [Result.boundary_result, Blocks.biasRelu_array (V5 m ρ) c, aggregate_5 m ρ c, biasRow_5 m ρ c]

end Cert.KernelIdeal.KernelValue

end
-- ==== Proof.RefValue.lean ====
/-
  The reference's result as the specification's function of the argument arrays.

  The reference multiplies x by the transposed weight matrix with one host matrix product — entry (r, j) is
  ∑ₖ x(r, k) · W(j, k), the specification's `linear` —, aggregates it over the edges, adds the bias broadcast down
  the rows and takes the maximum with zero: `biasRelu` of the aggregate of `linear`.
-/
import proofs.«173203_j66262755443071_1_alg».proof.Proof.Gen.ReferenceIdeal.Read
import proofs.«173203_j66262755443071_1_alg».proof.Proof.Aggregate
import proofs.«173203_j66262755443071_1_alg».proof.Proof.Spec
import Idealize.ShloMosaic.Lib.ValueIdx

noncomputable section

namespace Cert.ReferenceIdeal.RefValue

open Cert.ReferenceIdeal Cert.ReferenceIdeal.Gen Cert.ReferenceIdeal.Read Cert.ReferenceIdeal.Shared
open Idealize.ShloMosaic Idealize.ShloMosaic.ValueIdx GcnLayer

/-- The reference's matrix product with the transposed weights is the linear transform. -/
theorem product_is_linear (x0 : (⟨S100000x64, .f32⟩ : BufTy).Contents (Elt Ideal)) (x3 : (⟨S64x64, .f32⟩ : BufTy).Contents (Elt Ideal)) :
    val_main_v33 (F := Ideal) x0 x3 = linear x0 x3 := by
  funext i
  rw [val_main_v33_apply]
  unfold linear
  refine Finset.sum_congr rfl fun k _ => ?_
  rw [val_main_v32_apply]
  have el : lidx_main_v33 i k = ix2 (i 0) k :=
    funext fun a => Fin.ext (by match a with | ⟨0, _⟩ => rfl | ⟨1, _⟩ => rfl)
  have er : idx_main_v32 (ridx_main_v33 i k) = ix2 (i 1) k :=
    funext fun a => Fin.ext (by match a with | ⟨0, _⟩ => rfl | ⟨1, _⟩ => rfl)
  rw [el, er]
  rfl

/-- The reference's result: bias and rectifier of the aggregated linear transform. -/
theorem result_is_spec (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) :
    val_main_v50 (F := Ideal) x0 x1 x2 x3 x4 = biasRelu (aggregate (linear x0 x3) x1 x2) x4 := by
  funext i
  have eb : idx_main_v47 (idx_main_v48 i) = ix1 (i 1) :=
    funext fun a => Fin.ext (by match a with | ⟨0, _⟩ => rfl)
  rw [val_main_v50_apply, val_main_v49_apply, val_main_v48_apply, val_main_v47_apply, val_main_call1_v0_apply,
    val_main_call1_cst_apply, reference_aggregates, product_is_linear, eb]
  rfl

end Cert.ReferenceIdeal.RefValue

end
-- ==== Proof.lean ====
/-
  A graph convolution layer: kernel and reference compute the same function on the extended reals.

  With node features x : [100000, 64], an edge list, edge weights, a weight matrix W : [64, 64] and a bias b : [64],
  both programs compute
      out = max (A(x Wᵀ) + b) 0,
  where A gathers the source rows of its argument, scales each by its edge's symmetric normalisation coefficient and
  adds into the destination rows (self-loops of weight one appended). The reference does it in one host program. The
  kernel computes x Wᵀ in a first pipelined region, ten row blocks of 10000, each block a matrix product with the
  transposed weights into a zero accumulator; applies A on the host, by the same operations as the reference; and adds
  the bias and clamps at zero in a second pipelined region over the same ten row blocks.

  The two sides agree because (i) a matrix product into a zero accumulator is the plain sum ∑ₖ x(r, k) · W(j, k), the
  change of float format around it being the identity on the extended reals, and the host's matrix product is that
  same sum; (ii) the ten blocks of each region tile the rows, so each region's output array is one whole-array
  function of its inputs; (iii) A is applied to equal arrays. No law of arithmetic beyond these is used — nothing is
  distributed or cancelled — so the finiteness of the inputs is never needed.

  The frames are the generated ones (the reference's is its generated run with the result dropped); the idealization
  rewrote nothing, so there is nothing to preserve.
-/
import proofs.«173203_j66262755443071_1_alg».proof.Defs
import proofs.«173203_j66262755443071_1_alg».proof.Proof.Gen.Kernel
import proofs.«173203_j66262755443071_1_alg».proof.Proof.Gen.Kernel.Skeleton
import proofs.«173203_j66262755443071_1_alg».proof.Proof.Gen.Kernel.Launch
import proofs.«173203_j66262755443071_1_alg».proof.Proof.Gen.Kernel.Points
import proofs.«173203_j66262755443071_1_alg».proof.Proof.Gen.Kernel.Frame
import proofs.«173203_j66262755443071_1_alg».proof.Proof.Gen.KernelIdeal
import proofs.«173203_j66262755443071_1_alg».proof.Proof.Gen.KernelIdeal.Skeleton
import proofs.«173203_j66262755443071_1_alg».proof.Proof.Gen.KernelIdeal.Launch
import proofs.«173203_j66262755443071_1_alg».proof.Proof.Gen.KernelIdeal.Points
import proofs.«173203_j66262755443071_1_alg».proof.Proof.Gen.KernelIdeal.Frame
import proofs.«173203_j66262755443071_1_alg».proof.Proof.Gen.ReferenceIdeal
import proofs.«173203_j66262755443071_1_alg».proof.Proof.Gen.ReferenceIdeal.Run
import proofs.«173203_j66262755443071_1_alg».proof.Proof.Gen.ReferenceIdeal.Read
import proofs.«173203_j66262755443071_1_alg».proof.Proof.Gen.Pre_finite_inputs
import proofs.«173203_j66262755443071_1_alg».proof.Proof.KernelRun
import proofs.«173203_j66262755443071_1_alg».proof.Proof.KernelValue
import proofs.«173203_j66262755443071_1_alg».proof.Proof.RefValue
import Idealize.ShloMosaic.Adequacy
import Idealize.ShloMosaic.Init

noncomputable section

namespace Cert.Proof

open Idealize.ShloMosaic Idealize.ShloMosaic.TcCoe Idealize.SL.Sem GcnLayer Cert.ReferenceIdeal.Shared

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both idealized programs end with the result array at
    max (A(x Wᵀ) + b) 0 of those arguments, and keep them. -/
theorem algebraic : Cert.algebraic_KernelIdeal_ReferenceIdeal := by
  intro m ρ m' ρ' _ hagree
  refine ⟨fun c => biasRelu (aggregate (linear (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.KernelIdeal.KernelValue.result m ρ c), (h c).2⟩)
      (Cert.KernelIdeal.Result.run_boundary (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v50_eq, Cert.ReferenceIdeal.RefValue.result_is_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
